-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x64 : Shape := ⟨3, ![512, 128, 64]⟩
abbrev S_ : Shape := ⟨0, ![]⟩

class Facts : Prop where
  bcast_S_S512x128x64 : S_.BroadcastsInDim S512x128x64 (![] : Fin 0 → Fin S512x128x64.rank)
  reducesTo_S512x128x64_S_d0_1_2 : S512x128x64.ReducesTo [0, 1, 2] S_
  h_S_ : 0 < S_.numel

variable [Facts]

def fn {F : FTy → Type} [FloatOps F] (main_arg0 : FVec F S512x128x64 .f32) : IVec S_ 1 :=
  let main_v0 : FVec F S512x128x64 .f32 := Host.absf main_arg0
  let main_cst : FVec F S_ .f32 := constant S_ .f32 0x7F800000#32
  let main_v1 : FVec F S512x128x64 .f32 := broadcastInDim S512x128x64 ![] bcast_S_S512x128x64 main_cst
  let main_v2 : IVec S512x128x64 1 := cmpf .olt main_v0 main_v1
  let main_c : IVec S_ 1 := constantI S_ 1 1#1
  let main_v3 : IVec S_ 1 := (fun x v => Host.reduce IntOp.andi x v reducesTo_S512x128x64_S_d0_1_2 h_S_) main_v2 main_c
  main_v3
-- ==== Kernel.lean ====
abbrev S512x128x64 : Shape := ⟨3, ![512, 128, 64]⟩
abbrev S64x128x64 : Shape := ⟨3, ![64, 128, 64]⟩
abbrev S64x64 : Shape := ⟨2, ![64, 64]⟩
abbrev S64x1x64 : Shape := ⟨3, ![64, 1, 64]⟩

abbrev nBuf : Space → Nat
  | .hbm => 2
  | .vmem => 4
  | .smem => 0
  | _ => 0

abbrev bufTy : (tb : Table) → Fin (tcTables nBuf tb) → BufTy
  | .hbm, ⟨0, _⟩ => ⟨S512x128x64, .f32⟩
  | .hbm, ⟨1, _⟩ => ⟨S512x128x64, .f32⟩
  | .local _ .vmem, ⟨0, _⟩ => ⟨S64x128x64, .f32⟩
  | .local _ .vmem, ⟨1, _⟩ => ⟨S64x128x64, .f32⟩
  | .local _ .vmem, ⟨2, _⟩ => ⟨S64x128x64, .f32⟩
  | .local _ .vmem, ⟨3, _⟩ => ⟨S64x128x64, .f32⟩
  | _, _ => ⟨S512x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x128x64_S64x128x64_0_0_0 : ∀ a, (![0, 0, 0] : Fin 3 → Nat) a + S64x128x64.size a ≤ S64x128x64.size a
  h_S64x128x64 : 0 < S64x128x64.numel
  reduces_S64x128x64_S64x64 : S64x128x64.Reduces [1] S64x64
  shapeCasts_S64x64_S64x1x64 : S64x64.ShapeCasts S64x1x64
  broadcasts_S64x1x64_S64x128x64 : S64x1x64.Broadcasts S64x128x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S512x128x64.size a
  hwx0_0 : ∀ i : grid0.Coords, EltTy.bits .f32 = 32 ∨ (Rect.block (s := S512x128x64) S64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x64.size a ≤ S512x128x64.size a
  hwx0_1 : ∀ i : grid0.Coords, EltTy.bits .f32 = 32 ∨ (Rect.block (s := S512x128x64) S64x128x64.size (cc0_transform_1 i) (hinb0_1 i)).WholeWords (EltTy.packing .f32)

variable [Facts₀]

abbrev win0_0 : Pipeline.Window sig grid0 :=
  Pipeline.Window.ofSpec (Memref.whole main_arg0) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x128x64 : Shape := ⟨3, ![512, 128, 64]⟩
abbrev S_ : Shape := ⟨0, ![]⟩
abbrev S512x64 : Shape := ⟨2, ![512, 64]⟩
abbrev S512x1x64 : Shape := ⟨3, ![512, 1, 64]⟩

abbrev nBuf : Space → Nat
  | .hbm => 10
  | .vmem => 0
  | .smem => 0
  | _ => 0

abbrev bufTy : (tb : Table) → Fin (tcTables nBuf tb) → BufTy
  | .hbm, ⟨0, _⟩ => ⟨S512x128x64, .f32⟩
  | .hbm, ⟨1, _⟩ => ⟨S_, .f32⟩
  | .hbm, ⟨2, _⟩ => ⟨S512x64, .f32⟩
  | .hbm, ⟨3, _⟩ => ⟨S512x1x64, .f32⟩
  | .hbm, ⟨4, _⟩ => ⟨S_, .f32⟩
  | .hbm, ⟨5, _⟩ => ⟨S512x1x64, .f32⟩
  | .hbm, ⟨6, _⟩ => ⟨S512x1x64, .f32⟩
  | .hbm, ⟨7, _⟩ => ⟨S512x128x64, .f32⟩
  | .hbm, ⟨8, _⟩ => ⟨S512x128x64, .f32⟩
  | .hbm, ⟨9, _⟩ => ⟨S512x128x64, .f32⟩
  | _, _ => ⟨S512x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  reducesTo_S512x128x64_S512x64_d1 : S512x128x64.ReducesTo [1] S512x64
  h_S_ : 0 < S_.numel
  bcast_S512x64_S512x1x64_0_2 : S512x64.BroadcastsInDim S512x1x64 (![0, 2] : Fin 2 → Fin S512x1x64.rank)
  bcast_S_S512x1x64 : S_.BroadcastsInDim S512x1x64 (![] : Fin 0 → Fin S512x1x64.rank)
  bcast_S512x1x64_S512x128x64_0_1_2 : S512x1x64.BroadcastsInDim S512x128x64 (![0, 1, 2] : Fin 3 → Fin S512x128x64.rank)

variable [Facts₀]

class Facts : Prop extends Facts₀ where

variable [Facts]
-- ==== Proof.MeanGate.lean ====
/-
  An array gated by its own mean along the item axis.

  For an array x of extents B × I × D over the extended reals (batch row p, item k, feature q) and a divisor n,
      gated n x (p, k, q) = tanh ( x[p, k, q] · ( (Σ_j x[p, j, q]) / n ) ),
  the sum over the I items of one batch row and one feature, the quotient the extended reals' division, the product
  and tanh the extended reals' (tanh of ±∞ is ±1). With n the value of the float word for I this is
  tanh (x · mean over items of x), the mean kept along the item axis and spread back over it.

  An entry's gate reads only entries of its own batch row. So a band of batch rows of the gate is the gate of the
  band (`gated_rows`): that is all the tiling of the batch axis needs.
-/
import Idealize.ShloMosaic.PureOps.Ideal
import Idealize.ShloMosaic.Lib.ValueIdx

noncomputable section

open scoped BigOperators

namespace Cert.MeanGate

open Idealize.ShloMosaic Idealize.ShloMosaic.ValueIdx

variable {B I D : Nat}

/-- The total of `x` along the item axis at batch row `p`, feature `q`. -/
def itemSum (x : (⟨3, ![B, I, D]⟩ : Shape).Idx → EReal) (p : Fin B) (q : Fin D) : EReal :=
  ∑ j : Fin I, x (ix3 p j q)

/-- Each entry times its row's item-axis total over `n`, through tanh. -/
def gated (n : EReal) (x : (⟨3, ![B, I, D]⟩ : Shape).Idx → EReal) : (⟨3, ![B, I, D]⟩ : Shape).Idx → EReal :=
  fun i => Ideal.tanh (x i * Ideal.div (itemSum x (i 0) (i 2)) n)

/-- The gate at `(p, k, q)`, coordinates explicit. -/
theorem gated_ix3 (n : EReal) (x : (⟨3, ![B, I, D]⟩ : Shape).Idx → EReal) (p : Fin B) (k : Fin I) (q : Fin D) :
    gated n x (ix3 p k q) = Ideal.tanh (x (ix3 p k q) * Ideal.div (itemSum x p q) n) := rfl

/-- A band of batch rows of the gate is the gate of the band: for any map `f` of the band's `B'` rows into the
    array's `B`, gating the array read through `f` on the batch axis is reading the gated array through `f`. -/
theorem gated_rows {B' : Nat} (n : EReal) (x : (⟨3, ![B, I, D]⟩ : Shape).Idx → EReal) (f : Fin B' → Fin B)
    (y : (⟨3, ![B', I, D]⟩ : Shape).Idx) :
    gated n (fun z : (⟨3, ![B', I, D]⟩ : Shape).Idx => x (ix3 (f (z 0)) (z 1) (z 2))) y
      = gated n x (ix3 (f (y 0)) (y 1) (y 2)) := rfl

/-- The divisor: the value of the float word for 128, the number of items. -/
abbrev items : EReal := Ideal.ofBits .f32 0x43000000#32

/-- The 512 × 128 × 64 array gated by its mean over the 128 items. -/
def meanGate (x : (⟨3, ![512, 128, 64]⟩ : Shape).Idx → EReal) : (⟨3, ![512, 128, 64]⟩ : Shape).Idx → EReal :=
  gated items x

end Cert.MeanGate

end
-- ==== Proof.LibMiddleAxisSum.lean ====
/-
  Totals along the middle axis of a rank-3 array, read at an entry over the extended reals.

  For an array x of extents a × n × b, the total over the middle axis at (p, q) is  Σ_k x[p, k, q],  k running over
  the n middle coordinates. Two spellings of that total are read here at the ideal instance, for any extents and any
  float format:
    · a vector add-reduction over axis 1 started from the additive neutral word: its entry (p, q) is the sum itself;
    · a host reduction over axis 1 with an add body from an initial value v: its entry (p, q) is v + the sum.
  Both come from the library's reading of a one-axis reduction as the sum over the coordinate inserted at that axis;
  what is added here is only where the inserted coordinate lands: between p and q (`lift_mid`).
-/
import Idealize.ShloMosaic.PureOps.Ideal.Laws
import Idealize.ShloMosaic.Lib.ValueIdx

noncomputable section

open scoped BigOperators

namespace Cert.MiddleAxisSum

open Idealize.ShloMosaic Idealize.ShloMosaic.ValueIdx

variable {a n b : Nat}

/-- Inserting the middle coordinate `k` into the pair `(p, q)` gives the triple `(p, k, q)`. -/
theorem lift_mid (h : (⟨3, ![a, n, b]⟩ : Shape).Reduces [1] ⟨2, ![a, b]⟩) (p : Fin a) (q : Fin b) (k : Fin n) :
    h.lift (ix2 p q) k = ix3 p k q :=
  funext fun c => Fin.ext (by match c with | ⟨0, _⟩ => rfl | ⟨1, _⟩ => rfl | ⟨2, _⟩ => rfl)

/-- A vector add-reduction over the middle axis, from the neutral word, at entry `(p, q)`: the sum of the `n` entries
    `(p, k, q)`. -/
theorem lane_sum_mid {φ : FTy} (src : FVec Ideal ⟨3, ![a, n, b]⟩ φ) (acc : BitVec φ.bits)
    (h : (⟨3, ![a, n, b]⟩ : Shape).Reduces [1] ⟨2, ![a, b]⟩) (hφ : FKind.Formats φ)
    (hacc : acc = FKind.add.neutral φ hφ) (p : Fin a) (q : Fin b) :
    multiReduction .add [1] ⟨2, ![a, b]⟩ src acc h hφ hacc (ix2 p q) = ∑ k : Fin n, src (ix3 p k q) :=
  (Ideal.multiReduction_add_single src acc h hφ hacc (ix2 p q)).trans
    (Finset.sum_congr rfl fun k _ => congrArg src (lift_mid h p q k))

/-- A host add-reduction over the middle axis from the initial value `init`, at entry `(p, q)`: `init` plus the sum
    of the `n` entries `(p, k, q)`. -/
theorem host_sum_mid (h' : (⟨3, ![a, n, b]⟩ : Shape).ReducesTo [1] ⟨2, ![a, b]⟩)
    (h : (⟨3, ![a, n, b]⟩ : Shape).Reduces [1] ⟨2, ![a, b]⟩) (x : (⟨3, ![a, n, b]⟩ : Shape).Idx → EReal)
    (init : EReal) (p : Fin a) (q : Fin b) :
    Ideal.hostReduceAdd h' x init (ix2 p q) = init + ∑ k : Fin n, x (ix3 p k q) :=
  (Ideal.hostReduceAdd_single h' h x init (ix2 p q)).trans
    (congrArg (init + ·) (Finset.sum_congr rfl fun k _ => congrArg x (lift_mid h p q k)))

end Cert.MiddleAxisSum

end
-- ==== Proof.KernelGate.lean ====
/-
  The kernel computes the mean gate, band by band.

  The batch axis of the 512 × 128 × 64 array is cut into 8 bands of 64 rows; grid point t loads band t whole, and
  stores, at entry (p, k, q) of the band, tanh of the product of the loaded entry with the band's item-axis total at
  (p, q) divided by the word for 128. The total is a vector add-reduction over the middle axis from the zero word: the
  plain sum of the band's 128 entries (p, j, q). So what point t leaves is the gate of band t; and since an entry's gate
  reads only its own batch row, the gate of band t is band t of the gate of the whole array. The 8 bands cover the
  array (row r lies in band r / 64), so the array ends holding `meanGate` of the argument.
-/
import proofs.«118312_j40707700032104_1_alg».proof.Proof.Gen.KernelIdeal.Value
import proofs.«118312_j40707700032104_1_alg».proof.Proof.MeanGate
import proofs.«118312_j40707700032104_1_alg».proof.Proof.LibMiddleAxisSum

set_option maxRecDepth 16384

noncomputable section

open scoped BigOperators

namespace Cert.KernelIdeal.GateValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One band -/

/-- What the body leaves of a loaded band `P0`, entry by entry, is the gate of that band: the lane reduction at
    `(p, q)` is the sum of the band's entries `(p, j, q)`. -/
theorem band_gate (P0 : Vec Ideal S64x128x64 .f32) (y : S64x128x64.Idx) :
    Value.E1 (F := Ideal) P0 y = MeanGate.gated MeanGate.items P0 y := by
  obtain ⟨p, k, q, rfl⟩ : ∃ (p : Fin 64) (k : Fin 128) (q : Fin 64), y = ix3 p k q := ⟨y 0, y 1, y 2, eq_ix3 y⟩
  have e0 : Value.ix1_0 (ix3 p k q) = ix3 p k q :=
    funext fun a => Fin.ext (by match a with | ⟨0, _⟩ => rfl | ⟨1, _⟩ => rfl | ⟨2, _⟩ => rfl)
  have e1 : Value.ix1_1 (ix3 p k q) = ix2 p q :=
    funext fun a => Fin.ext (by match a with | ⟨0, _⟩ => rfl | ⟨1, _⟩ => rfl)
  show Ideal.tanh (P0 (Value.ix1_0 (ix3 p k q)) * Ideal.div
      ((multiReduction (F := Ideal) .add [1] S64x64 P0 0x00000000#32 reduces_S64x128x64_S64x64 (.inl rfl) rfl) (Value.ix1_1 (ix3 p k q)))
      MeanGate.items) = Ideal.tanh (P0 (ix3 p k q) * Ideal.div (MeanGate.itemSum P0 p q) MeanGate.items)
  rw [e0, e1]
  exact congrArg (fun s => Ideal.tanh (P0 (ix3 p k q) * Ideal.div s MeanGate.items))
    (MiddleAxisSum.lane_sum_mid P0 0x00000000#32 reduces_S64x128x64_S64x64 (.inl rfl) rfl p q)

theorem origin : (![0, 0, 0] : Fin 3 → Nat) = fun _ => 0 := funext fun a => by fin_cases a <;> rfl

/-- The body's one store covers the staging buffer, so the buffer after the body is the gate of the loaded band. -/
theorem out_gate (x0 : Vec Ideal S64x128x64 .f32) : out0_1 x0 = MeanGate.gated MeanGate.items x0 := by
  funext y
  unfold out0_1
  rw [Value.canon1_eq, View.ld_unit_zero (S := S64x128x64) origin]
  exact band_gate x0 y

/-! ## The bands in the array -/

/-- The printed index maps over the 8 grid points: both windows move together along the batch axis and sit at the
    origin of the other two; the band number is at most 7. -/
theorem band_index : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 7 :=
  (by decide +kernel : ∀ t : Fin grid0.N, _)

/-- Every band is some point's. -/
theorem band_onto : ∀ b : Fin 8, ∃ t : Fin cfg0.N, win0_1.index t (0 : Fin 3) = b.val :=
  (by decide +kernel : ∀ b : Fin 8, ∃ t : Fin grid0.N, win0_1.index t (0 : Fin 3) = b.val)

/-- Row `r` of point `t`'s band, as a row of the array. -/
def bandRow (t : Fin cfg0.N) (r : Fin 64) : Fin 512 :=
  ⟨win0_1.index t (0 : Fin 3) * 64 + r.val, by have := (band_index t).2.2.2.2.2; have := r.isLt; omega⟩

/-- WHAT POINT `t` WRITES BACK is band `t` of the gate of the argument array. -/
theorem flushed_gate (c : Dev nD) (t : Fin cfg0.N) :
    (dats m 0 c).flushed 1 t
      = ((cfg0.win 1).blk t).view.read (Elt Ideal) (MeanGate.meanGate (V m c main_arg0)) := by
  obtain ⟨e0, e1, e2, e3, e4, e5⟩ := band_index t
  rw [Value.flushed1]
  funext j
  show out0_1 (iblk m c 0 t) j = MeanGate.gated MeanGate.items (V m c main_arg0) (((cfg0.win 1).blk t).view.emb j)
  refine (congrFun (out_gate (iblk m c 0 t)) j).trans ?_
  have hin : iblk m c 0 t = fun z : S64x128x64.Idx => V m c main_arg0 (ix3 (bandRow t (z 0)) (z 1) (z 2)) := by
    funext z
    show V m c main_arg0 (((cfg0.win 0).blk t).view.emb z) = _
    refine congrArg (V m c main_arg0) (funext fun a => Fin.ext ?_)
    match a with
    | ⟨0, _⟩ => show win0_0.index t (0 : Fin 3) * 64 + 1 * (z 0).val = win0_1.index t (0 : Fin 3) * 64 + (z 0).val; omega
    | ⟨1, _⟩ => show win0_0.index t (1 : Fin 3) * 128 + 1 * (z 1).val = (z 1).val; omega
    | ⟨2, _⟩ => show win0_0.index t (2 : Fin 3) * 64 + 1 * (z 2).val = (z 2).val; omega
  rw [hin]
  refine (MeanGate.gated_rows MeanGate.items (V m c main_arg0) (bandRow t) j).trans ?_
  refine congrArg (MeanGate.gated MeanGate.items (V m c main_arg0)) (funext fun a => Fin.ext ?_)
  match a with
  | ⟨0, _⟩ => show win0_1.index t (0 : Fin 3) * 64 + (j 0).val = win0_1.index t (0 : Fin 3) * 64 + 1 * (j 0).val; omega
  | ⟨1, _⟩ => show (j 1).val = win0_1.index t (1 : Fin 3) * 128 + 1 * (j 1).val; omega
  | ⟨2, _⟩ => show (j 2).val = win0_1.index t (2 : Fin 3) * 64 + 1 * (j 2).val; omega

/-- An index of the array is in point `t`'s band iff each coordinate is in the band's range on its axis. -/
theorem mem_band (t : Fin cfg0.N) (i : S512x128x64.Idx) :
    i ∈ ((cfg0.win 1).blk t).view.set ↔ ∀ a : Fin 3, win0_1.index t a * S64x128x64.size a ≤ (i a).val
      ∧ (i a).val < win0_1.index t a * S64x128x64.size a + S64x128x64.size a := by
  show i ∈ ((View.whole main_v0).slice (win0_1.rect t)).set ↔ _
  rw [View.set_slice_whole, Rect.mem_set_unit]
  exact Iff.rfl

/-- The bands cover the array: row `r` lies in band `r / 64`. -/
theorem band_cover (i : S512x128x64.Idx) :
    ∃ t : Fin cfg0.N, (cfg0.win 1).flush t = true ∧ i ∈ ((cfg0.win 1).blk t).view.set := by
  have hi0 : (i 0).val < 512 := (i 0).isLt
  have hi1 : (i 1).val < 128 := (i 1).isLt
  have hi2 : (i 2).val < 64 := (i 2).isLt
  obtain ⟨t, ht⟩ := band_onto ⟨(i 0).val / 64, by omega⟩
  have hb : win0_1.index t (0 : Fin 3) = (i 0).val / 64 := ht
  obtain ⟨e0, e1, e2, e3, e4, e5⟩ := band_index t
  refine ⟨t, flush0_1 t, ?_⟩
  rw [mem_band]
  intro a
  match a with
  | ⟨0, _⟩ => show win0_1.index t (0 : Fin 3) * 64 ≤ (i 0).val ∧ (i 0).val < win0_1.index t (0 : Fin 3) * 64 + 64; omega
  | ⟨1, _⟩ => show win0_1.index t (1 : Fin 3) * 128 ≤ (i 1).val ∧ (i 1).val < win0_1.index t (1 : Fin 3) * 128 + 128; omega
  | ⟨2, _⟩ => show win0_1.index t (2 : Fin 3) * 64 ≤ (i 2).val ∧ (i 2).val < win0_1.index t (2 : Fin 3) * 64 + 64; omega

/-- THE ARRAY after the run is the mean gate of the argument. -/
theorem final (c : Dev nD) :
    (dats m 0 c).arrAt 1 cfg0.N = MeanGate.meanGate (m ((c : Thread nD τ).loc main_arg0)) :=
  (dats m 0 c).arrAt_eq_of_cover 1 (MeanGate.meanGate (V m c main_arg0)) (fun t _ => flushed_gate m c t) band_cover

/-- The kernel's run: the result array ends at the mean gate of the argument, the argument unchanged. -/
theorem run : θ_run defs (onTc (τ := τ) (main (F := Ideal))) ⟨m, fun _ => 0, ρ⟩ fun r => ∀ c : Dev nD,
      r.2.mem ((c : Thread nD τ).loc main_v0) = MeanGate.meanGate (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.GateValue

end
-- ==== Proof.ReferenceGate.lean ====
/-
  The reference program computes the mean gate.

  Its nine host operations, read one at a time at an entry (p, k, q) of the 512 × 128 × 64 result:
  tanh of the product of x[p, k, q] with the entry (p, 0, q) of the kept-axis quotient, which is the entry (p, q) of
  the item-axis reduction divided by the word for 128 spread over every entry; the reduction starts from the zero
  word, whose value is 0, so it is the plain sum Σ_j x[p, j, q]. Over the extended reals that is `meanGate x` entry
  by entry: the host's division and tanh are the extended reals' own.
-/
import proofs.«118312_j40707700032104_1_alg».proof.Proof.Gen.ReferenceIdeal.Read
import proofs.«118312_j40707700032104_1_alg».proof.Proof.MeanGate

noncomputable section

open scoped BigOperators

namespace Cert.ReferenceIdeal.GateValue

open Cert.ReferenceIdeal Cert.ReferenceIdeal.Gen Cert.ReferenceIdeal.Read Idealize.ShloMosaic Idealize.ShloMosaic.ValueIdx

/-- The reference's result, as the Read module stages it, is the mean gate of its argument. -/
theorem result_gate (x : (⟨S512x128x64, .f32⟩ : BufTy).Contents (Elt Ideal)) :
    val_main_v6 (F := Ideal) x = MeanGate.meanGate x := by
  funext i
  obtain ⟨p, k, q, rfl⟩ : ∃ (p : Fin 512) (k : Fin 128) (q : Fin 64), i = ix3 p k q := ⟨i 0, i 1, i 2, eq_ix3 i⟩
  have hrow : ∀ j : Fin 128, idx_main_v0 (idx_main_v1 (idx_main_v4 (ix3 p k q))) j = ix3 p j q := fun j =>
    funext fun a => Fin.ext (by match a with | ⟨0, _⟩ => rfl | ⟨1, _⟩ => rfl | ⟨2, _⟩ => rfl)
  rw [val_main_v6_apply, val_main_v5_apply, val_main_v4_apply, val_main_v3_apply, val_main_v1_apply,
    val_main_v0_apply, val_main_v2_apply, val_main_cst_0_apply, val_main_cst_apply]
  simp only [hrow, Ideal.hostUnary_tanh_def, Ideal.hostDivf_def, Ideal.mulf_def, Ideal.ofBits_def,
    Ideal.ofBits_zero_f32, zero_add]
  rfl

end Cert.ReferenceIdeal.GateValue

end
-- ==== Proof.lean ====
/-
  The kernel and its reference compute the same array over the extended reals.

  Both programs take one array x of extents 512 × 128 × 64 (batch row, item, feature) and return
      tanh ( x[p, k, q] · ( (Σ_j x[p, j, q]) / 128 ) )
  at every entry (p, k, q): each entry gated by the mean of its batch row and feature over the 128 items
  (Proof/MeanGate.lean's `meanGate`). The kernel does it band by band, 8 grid points of 64 batch rows each, the mean
  from a vector add-reduction over the item axis (Proof/KernelGate.lean, with Proof/LibMiddleAxisSum.lean for the
  reduction read as a sum); the reference does it in one pass of nine host operations (Proof/ReferenceGate.lean).
  The two expressions are the same arrangement of the same operations with the same float words (the zero word the
  sums start from, the word for 128), so no law of arithmetic joins them and the inputs' finiteness is never used:
  a sum, a product, a quotient and tanh on the extended reals are what they are whatever the entries.

  The claims: the three frames are the generated frame runs (the reference's is its generated run with the result
  dropped); the idealization rewrote no operation, so there is nothing to preserve; and the algebraic claim sets
  the two runs side by side, both result arrays at `meanGate` of arguments that agree.
-/
import proofs.«118312_j40707700032104_1_alg».proof.Defs
import proofs.«118312_j40707700032104_1_alg».proof.Proof.Gen.Kernel
import proofs.«118312_j40707700032104_1_alg».proof.Proof.Gen.Kernel.Skeleton
import proofs.«118312_j40707700032104_1_alg».proof.Proof.Gen.Kernel.Launch
import proofs.«118312_j40707700032104_1_alg».proof.Proof.Gen.Kernel.Points
import proofs.«118312_j40707700032104_1_alg».proof.Proof.Gen.Kernel.Frame
import proofs.«118312_j40707700032104_1_alg».proof.Proof.Gen.KernelIdeal
import proofs.«118312_j40707700032104_1_alg».proof.Proof.Gen.KernelIdeal.Skeleton
import proofs.«118312_j40707700032104_1_alg».proof.Proof.Gen.KernelIdeal.Launch
import proofs.«118312_j40707700032104_1_alg».proof.Proof.Gen.KernelIdeal.Points
import proofs.«118312_j40707700032104_1_alg».proof.Proof.Gen.KernelIdeal.Frame
import proofs.«118312_j40707700032104_1_alg».proof.Proof.Gen.ReferenceIdeal
import proofs.«118312_j40707700032104_1_alg».proof.Proof.Gen.Pre_finite_inputs
import proofs.«118312_j40707700032104_1_alg».proof.Proof.Gen.KernelIdeal.Value
import proofs.«118312_j40707700032104_1_alg».proof.Proof.Gen.ReferenceIdeal.Run
import proofs.«118312_j40707700032104_1_alg».proof.Proof.Gen.ReferenceIdeal.Read
import proofs.«118312_j40707700032104_1_alg».proof.Proof.KernelGate
import proofs.«118312_j40707700032104_1_alg».proof.Proof.ReferenceGate
import Idealize.ShloMosaic.Adequacy
import Idealize.ShloMosaic.Init

noncomputable section

namespace Cert.Proof

open Idealize.ShloMosaic Idealize.ShloMosaic.TcCoe Idealize.SL.Sem

/-- The word-level kernel's frame: the generated frame run. -/
theorem frame_kernel : Cert.frame_Kernel := fun m ρ _ => Cert.Kernel.Gen.frame m ρ

/-- The idealized kernel's frame: the generated frame run. -/
theorem frame_kernel_ideal : Cert.frame_KernelIdeal := fun m ρ _ => Cert.KernelIdeal.Gen.frame m ρ

/-- The reference's frame: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the argument, both runs end with the result array at the mean gate of the argument:
    the kernel's by its bands, the reference's by its last stage read entry by entry. -/
theorem algebraic : Cert.algebraic_KernelIdeal_ReferenceIdeal := by
  intro m ρ m' ρ' _ hagree
  refine ⟨fun c => MeanGate.meanGate (m ((c.tc : Thread Cert.KernelIdeal.nD Cert.KernelIdeal.τ).loc Cert.KernelIdeal.main_arg0)),
    Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.GateValue.result_gate, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
